-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S1x128 : Shape := ⟨2, ![1, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  main_v18

def fn {F : FTy → Type} [FloatOps F] (main_arg0 : FVec F S50000x128 .f32) (main_arg1 : IVec S600000 32) (main_arg2 : IVec S600000 32) (main_arg3 : FVec F S128x128 .f32) (main_arg4 : FVec F S128 .f32) (main_arg5 : FVec F S1x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1x128 .f32 := Host.absf main_arg5
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S1x128 : Shape := ⟨2, ![1, 128]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S5000x128 : Shape := ⟨2, ![5000, 128]⟩
abbrev S5000x1 : Shape := ⟨2, ![5000, 1]⟩
abbrev S600000x128 : Shape := ⟨2, ![600000, 128]⟩
abbrev S10000x128 : Shape := ⟨2, ![10000, 128]⟩
abbrev S10000x1 : Shape := ⟨2, ![10000, 1]⟩

abbrev nBuf : Space → Nat
  | .hbm => 62
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S1x128, .f32⟩
  | .hbm, ⟨6, _⟩ => ⟨S_, .f32⟩
  | .hbm, ⟨7, _⟩ => ⟨S600000, .f32⟩
  | .hbm, ⟨8, _⟩ => ⟨S_, .f32⟩
  | .hbm, ⟨9, _⟩ => ⟨S50000, .f32⟩
  | .hbm, ⟨10, _⟩ => ⟨S600000x1, .i32⟩
  | .hbm, ⟨11, _⟩ => ⟨S50000, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S128x128, .f32⟩
  | .hbm, ⟨22, _⟩ => ⟨S128x128, .bf16⟩
  | .hbm, ⟨23, _⟩ => ⟨S1x128, .f32⟩
  | .hbm, ⟨24, _⟩ => ⟨S50000x1, .f32⟩
  | .hbm, ⟨25, _⟩ => ⟨S50000x128, .f32⟩
  | .hbm, ⟨26, _⟩ => ⟨S50000x128, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000, .f32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000, .f32⟩
  | .hbm, ⟨45, _⟩ => ⟨S600000, .f32⟩
  | .hbm, ⟨46, _⟩ => ⟨S600000x1, .f32⟩
  | .hbm, ⟨47, _⟩ => ⟨S_, .i32⟩
  | .hbm, ⟨48, _⟩ => ⟨S600000, .i32⟩
  | .hbm, ⟨49, _⟩ => ⟨S600000, .i1⟩
  | .hbm, ⟨50, _⟩ => ⟨S_, .i32⟩
  | .hbm, ⟨51, _⟩ => ⟨S600000, .i32⟩
  | .hbm, ⟨52, _⟩ => ⟨S600000, .i32⟩
  | .hbm, ⟨53, _⟩ => ⟨S600000, .i32⟩
  | .hbm, ⟨54, _⟩ => ⟨S600000x1, .i32⟩
  | .hbm, ⟨55, _⟩ => ⟨S600000x128, .f32⟩
  | .hbm, ⟨56, _⟩ => ⟨S600000x128, .f32⟩
  | .hbm, ⟨57, _⟩ => ⟨S_, .f32⟩
  | .hbm, ⟨58, _⟩ => ⟨S50000x128, .f32⟩
  | .hbm, ⟨59, _⟩ => ⟨S600000x1, .i32⟩
  | .hbm, ⟨60, _⟩ => ⟨S50000x128, .f32⟩
  | .hbm, ⟨61, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S1x128, .f32⟩
  | .local _ .vmem, ⟨4, _⟩ => ⟨S1x128, .f32⟩
  | .local _ .vmem, ⟨5, _⟩ => ⟨S5000x1, .f32⟩
  | .local _ .vmem, ⟨6, _⟩ => ⟨S5000x1, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S10000x128, .f32⟩
  | .local _ .vmem, ⟨12, _⟩ => ⟨S10000x128, .f32⟩
  | .local _ .vmem, ⟨13, _⟩ => ⟨S10000x1, .f32⟩
  | .local _ .vmem, ⟨14, _⟩ => ⟨S10000x1, .f32⟩
  | .local _ .vmem, ⟨15, _⟩ => ⟨S10000x128, .f32⟩
  | .local _ .vmem, ⟨16, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_c_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![60], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  transposes_S128x128_S128x128_1_0 : S128x128.Transposes [1, 0] S128x128
  bitsLt_bf16_f32 : FTy.bits .bf16 < FTy.bits .f32
  shapeCasts_S128_S1x128 : S128.ShapeCasts S1x128
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  shapeCasts_S600000_S600000x1 : S600000.ShapeCasts S600000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S10000x1_S10000x128 : S10000x1.Broadcasts S10000x128
  bcast_S_S50000x128 : S_.BroadcastsInDim S50000x128 (![] : Fin 0 → Fin S50000x128.rank)
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S50000x1.size a
  hwx0_4 : ∀ i : grid0.Coords, EltTy.bits .f32 = 32 ∨ (Rect.block (s := S50000x1) S5000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S600000x128.size a
  hwx1_0 : ∀ i : grid1.Coords, EltTy.bits .f32 = 32 ∨ (Rect.block (s := S600000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S600000x1.size a
  hwx1_1 : ∀ i : grid1.Coords, EltTy.bits .f32 = 32 ∨ (Rect.block (s := S600000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S600000x128.size a
  hwx1_2 : ∀ i : grid1.Coords, EltTy.bits .f32 = 32 ∨ (Rect.block (s := S600000x128) S10000x128.size (cc1_transform_2 i) (hinb1_2 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S5000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14_1) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v37) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S1x128 : Shape := ⟨2, ![1, 128]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩

abbrev nBuf : Space → Nat
  | .hbm => 73
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S1x128, .f32⟩
  | .hbm, ⟨6, _⟩ => ⟨S128x128, .f32⟩
  | .hbm, ⟨7, _⟩ => ⟨S50000x128, .f32⟩
  | .hbm, ⟨8, _⟩ => ⟨S1x128, .f32⟩
  | .hbm, ⟨9, _⟩ => ⟨S50000x128, .f32⟩
  | .hbm, ⟨10, _⟩ => ⟨S50000x128, .f32⟩
  | .hbm, ⟨11, _⟩ => ⟨S_, .f32⟩
  | .hbm, ⟨12, _⟩ => ⟨S600000, .f32⟩
  | .hbm, ⟨13, _⟩ => ⟨S_, .f32⟩
  | .hbm, ⟨14, _⟩ => ⟨S50000, .f32⟩
  | .hbm, ⟨15, _⟩ => ⟨S600000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S600000, .i32⟩
  | .hbm, ⟨25, _⟩ => ⟨S600000, .i1⟩
  | .hbm, ⟨26, _⟩ => ⟨S_, .i32⟩
  | .hbm, ⟨27, _⟩ => ⟨S600000, .i32⟩
  | .hbm, ⟨28, _⟩ => ⟨S600000, .i32⟩
  | .hbm, ⟨29, _⟩ => ⟨S600000, .i32⟩
  | .hbm, ⟨30, _⟩ => ⟨S600000x1, .i32⟩
  | .hbm, ⟨31, _⟩ => ⟨S600000, .f32⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S600000x1, .i32⟩
  | .hbm, ⟨40, _⟩ => ⟨S600000, .f32⟩
  | .hbm, ⟨41, _⟩ => ⟨S600000, .f32⟩
  | .hbm, ⟨42, _⟩ => ⟨S600000x1, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x128, .f32⟩
  | .hbm, ⟨52, _⟩ => ⟨S_, .f32⟩
  | .hbm, ⟨53, _⟩ => ⟨S600000x128, .f32⟩
  | .hbm, ⟨54, _⟩ => ⟨S600000x128, .f32⟩
  | .hbm, ⟨55, _⟩ => ⟨S600000x128, .f32⟩
  | .hbm, ⟨56, _⟩ => ⟨S600000x128, .f32⟩
  | .hbm, ⟨57, _⟩ => ⟨S_, .f32⟩
  | .hbm, ⟨58, _⟩ => ⟨S50000x128, .f32⟩
  | .hbm, ⟨59, _⟩ => ⟨S600000x1, .i32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000, .f32⟩
  | .hbm, ⟨68, _⟩ => ⟨S50000, .f32⟩
  | .hbm, ⟨69, _⟩ => ⟨S50000x1, .f32⟩
  | .hbm, ⟨70, _⟩ => ⟨S50000x128, .f32⟩
  | .hbm, ⟨71, _⟩ => ⟨S50000x128, .f32⟩
  | .hbm, ⟨72, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call0_cst : Ref sig .tc := ⟨.hbm, 52, rfl⟩
abbrev main_call0_v0 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call1_cst : Ref sig .tc := ⟨.hbm, 63, rfl⟩
abbrev main_call1_v0 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  dot_S50000x128_S128x128_S50000x128_1_0_0_1_n_n_wf : DotDims.WF S50000x128 S128x128 S50000x128 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.KernelRun.lean ====
/-
  The run of the whole program with its result named.

  The program is five segments: host operations, the linear and self-loop kernel over ten blocks of rows, host operations,
  the edge-message kernel over sixty blocks of edges, host operations. The buffer contents at each boundary are a fold from
  the launch memory: a host stretch applies its operations, a kernel region replaces each of its arrays by what its
  write-backs leave. Every weakly fair execution terminates without a fault in a state whose unscoped buffers hold the
  last boundary's contents; read at the result buffer and at the six arguments this gives the run below: the result is the
  last fold's value at the result buffer, and the arguments are as launched.
-/
import proofs.«113953_j21423296872969_1_alg».proof.Proof.Gen.KernelIdeal.Frame

set_option maxRecDepth 16384

noncomputable section

namespace Cert.KernelIdeal.RunResult

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v42) = W5 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v42 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.RunResult

end
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.LibKeepdimsLayout.lean ====
/-
  Layout operations read at an index given by coordinates, for the shapes a row-wise reduction with a kept axis and a
  block with two leading unit axes produce: a vector `[a]` cast to a column `[a, 1]`, a column `[a, 1]` broadcast
  along its rows to `[a, b]`, and the casts between `[1, 1, a, b]` and `[a, b]`. A cast keeps the row-major position,
  and a unit axis contributes nothing to it; a broadcast re-reads the column's one entry of the row at every column.
  Each lemma is the general read-at-an-index lemma of the operation with both indices written by coordinates, so that
  it applies to a printed operation by unification.
-/
import Idealize.ShloMosaic.Lib.Pipeline.Value
import Idealize.ShloMosaic.Lib.ValueIdx

namespace Cert.LayoutKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LayoutKeepdims
-- ==== Proof.BodyAt.lean ====
/-
  The two kernel bodies read at one entry of a block, over the extended reals.

  The first body takes a block of rows of x, the whole matrix Wᵀ (a change of float format is the identity here), the
  bias row b and the root row r, and a column of reciprocal degrees. Its first store holds, at row p and column q,
      h[p, q] = Σ_k x[p, k] · Wᵀ[k, q] + b[0, q],
  and its second store holds  max(h[p, q] + r[0, q], 0) · dinv[p, 0].
  The second body takes a block of gathered rows g and a column of edge weights n and stores  n[p, 0] · max(g[p, q], 0).
  Each layout operation of the bodies (a cast to the same shape, a row or a column broadcast over the block) is read at
  the entry; the matrix unit started from the zero splat is the plain sum over the contracted axis.
-/
import proofs.«113953_j21423296872969_1_alg».proof.Proof.Gen.KernelIdeal.Skeleton
import proofs.«113953_j21423296872969_1_alg».proof.Proof.LibDotInner
import proofs.«113953_j21423296872969_1_alg».proof.Proof.LibKeepdimsLayout
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KernelIdeal.BodyAt

open Cert.KernelIdeal Cert.KernelIdeal.Gen Idealize.ShloMosaic Idealize.ShloMosaic.ValueIdx

/-! ## The block product's dimension numbers: rows from the left operand, columns from the right, one contracted axis -/

theorem lhs_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem lhs_contr (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q

theorem rhs_contr (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q

theorem rhs_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-! ## The linear layer's block -/

/-- The first store of the first body at (p, q): the row of x against the column of Wᵀ, plus the bias entry. -/
theorem linear_at (x : FVec Ideal S5000x128 .f32) (wt : FVec Ideal S128x128 .bf16) (b : FVec Ideal S1x128 .f32)
    (p : Fin 5000) (q : Fin 128) :
    k0_pay1 (F := Ideal) x wt b (ix2 p q) = (∑ k : Fin 128, x (ix2 p k) * wt (ix2 k q)) + b (ix2 (0 : Fin 1) q) := by
  unfold k0_pay1
  rw [addf_apply, shapeCast_self, shapeCast_self, broadcastTo_1b_ab_apply]
  exact congrArg (· + b (ix2 (0 : Fin 1) q))
    (DotInner.matmul_zero_apply dot_S5000x128_S128x128_S5000x128_1_0_0_1_n_n rfl rfl lhs_row lhs_contr rhs_contr rhs_col
      none (truncf .bf16 x bitsLt_bf16_f32) wt p q)

/-- The second store of the first body at (p, q): the linear entry plus the root entry, cut at zero, times the row's
    reciprocal degree. -/
theorem self_loop_at (x : FVec Ideal S5000x128 .f32) (wt : FVec Ideal S128x128 .bf16) (b r : FVec Ideal S1x128 .f32)
    (dinv : FVec Ideal S5000x1 .f32) (p : Fin 5000) (q : Fin 128) :
    k0_pay2 (F := Ideal) x wt b r dinv (ix2 p q)
      = max (k0_pay1 (F := Ideal) x wt b (ix2 p q) + r (ix2 (0 : Fin 1) q)) (Ideal.ofBits .f32 0x00000000#32)
        * dinv (ix2 p (0 : Fin 1)) := by
  unfold k0_pay2
  rw [mulf_apply, maximumf_apply, addf_apply, shapeCast_self, broadcastTo_1b_ab_apply,
    Cert.LayoutKeepdims.broadcastTo_a1_ab_apply]
  rfl

/-! ## The edge message's block -/

/-- The second body's store at (p, q): the edge's weight times the gathered entry cut at zero. -/
theorem message_at (n : FVec Ideal S10000x1 .f32) (g : FVec Ideal S10000x128 .f32) (p : Fin 10000) (q : Fin 128) :
    k1_pay1 (F := Ideal) n g (ix2 p q)
      = n (ix2 p (0 : Fin 1)) * max (g (ix2 p q)) (Ideal.ofBits .f32 0x00000000#32) := by
  unfold k1_pay1
  rw [mulf_apply, maximumf_apply, shapeCast_self, shapeCast_self, Cert.LayoutKeepdims.broadcastTo_a1_ab_apply]
  rfl

end Cert.KernelIdeal.BodyAt

end
-- ==== Proof.RefAt.lean ====
/-
  The reference's three dense stages read at one entry, over the extended reals.

  With x the node features, W the weights, b the bias, r the root row, and from the edge lists the degree-derived vectors
  dinv (reciprocal degree per node) and nrm (symmetric weight per edge), the reference computes
      h[n, q]    = Σ_k x[n, k] · Wᵀ[k, q] + b[q]
      self[n, q] = max(h[n, q] + r[0, q], 0) · dinv[n]
      msg[e, q]  = nrm[e] · max(hsrc[e, q], 0)            (hsrc the rows of h gathered by the edges' sources).
  Each is read off the generated one-operation-at-a-time lemmas: every broadcast re-reads its operand at the entry's row
  or column, the contraction is a sum over the shared axis, and the pointwise operations are the extended reals' own.
-/
import proofs.«113953_j21423296872969_1_alg».proof.Proof.Gen.ReferenceIdeal.Read
import Idealize.ShloMosaic.Lib.ValueIdx

noncomputable section

open scoped BigOperators

namespace Cert.ReferenceIdeal.StageAt

open Cert.ReferenceIdeal Cert.ReferenceIdeal.Read Idealize.ShloMosaic Idealize.ShloMosaic.ValueIdx

/-- The linear layer at (n, q): row n of x against column q of Wᵀ, plus the bias entry q. -/
theorem linear_at (x0 : FVec Ideal S50000x128 .f32) (x3 : FVec Ideal S128x128 .f32) (x4 : FVec Ideal S128 .f32)
    (n : Fin 50000) (q : Fin 128) :
    val_main_v4 (F := Ideal) x0 x3 x4 (ix2 n q)
      = (∑ k : Fin 128, x0 (ix2 n k) * val_main_v0 (F := Ideal) x3 (ix2 k q)) + x4 (ix1 q) := by
  have hl : ∀ k : Fin 128, lidx_main_v1 (ix2 n q) k = ix2 n k := fun k => funext fun a => Fin.ext (by
    match a with
    | ⟨0, _⟩ => rfl
    | ⟨1, _⟩ => rfl)
  have hr : ∀ k : Fin 128, ridx_main_v1 (ix2 n q) k = ix2 k q := fun k => funext fun a => Fin.ext (by
    match a with
    | ⟨0, _⟩ => rfl
    | ⟨1, _⟩ => rfl)
  have h3 : idx_main_v3 (ix2 n q) = ix2 (0 : Fin 1) q := funext fun a => Fin.ext (by
    match a with
    | ⟨0, _⟩ => rfl
    | ⟨1, _⟩ => rfl)
  have h2 : idx_main_v2 (ix2 (0 : Fin 1) q) = ix1 q := funext fun a => Fin.ext (by
    match a with
    | ⟨0, _⟩ => rfl)
  rw [val_main_v4_apply, val_main_v1_apply, val_main_v3_apply, h3, val_main_v2_apply, h2]
  simp only [hl, hr]
  rfl

/-- The self-loop term at (n, q): the linear entry plus the root entry q, cut at zero, times node n's reciprocal
    degree. -/
theorem self_loop_at (x0 : FVec Ideal S50000x128 .f32) (x2 : IVec S600000 32) (x3 : FVec Ideal S128x128 .f32)
    (x4 : FVec Ideal S128 .f32) (x5 : FVec Ideal S1x128 .f32) (n : Fin 50000) (q : Fin 128) :
    val_main_v49 (F := Ideal) x0 x2 x3 x4 x5 (ix2 n q)
      = max (val_main_v4 (F := Ideal) x0 x3 x4 (ix2 n q) + x5 (ix2 (0 : Fin 1) q)) (Ideal.ofBits .f32 0x00000000#32)
        * val_main_v46 (F := Ideal) x2 (ix1 n) := by
  have h42 : idx_main_v42 (ix2 n q) = ix2 (0 : Fin 1) q := funext fun a => Fin.ext (by
    match a with
    | ⟨0, _⟩ => rfl
    | ⟨1, _⟩ => rfl)
  have h48 : idx_main_v48 (ix2 n q) = ix2 n (0 : Fin 1) := funext fun a => Fin.ext (by
    match a with
    | ⟨0, _⟩ => rfl
    | ⟨1, _⟩ => rfl)
  have h47 : idx_main_v47 (ix2 n (0 : Fin 1)) = ix1 n := funext fun a => Fin.ext (by
    match a with
    | ⟨0, _⟩ => rfl)
  rw [val_main_v49_apply, val_main_v44_apply, val_main_v43_apply, val_main_v42_apply, h42, val_main_call1_v0_apply,
    val_main_call1_cst_apply, val_main_v48_apply, h48, val_main_v47_apply, h47]
  rfl

/-- The message at (e, q): edge e's weight times the gathered entry cut at zero. -/
theorem message_at (x0 : FVec Ideal S50000x128 .f32) (x1 x2 : IVec S600000 32) (x3 : FVec Ideal S128x128 .f32)
    (x4 : FVec Ideal S128 .f32) (e : Fin 600000) (q : Fin 128) :
    val_main_v38 (F := Ideal) x0 x1 x2 x3 x4 (ix2 e q)
      = val_main_v27 (F := Ideal) x1 x2 (ix1 e)
        * max (val_main_v35 (F := Ideal) x0 x1 x3 x4 (ix2 e q)) (Ideal.ofBits .f32 0x00000000#32) := by
  have h37 : idx_main_v37 (ix2 e q) = ix2 e (0 : Fin 1) := funext fun a => Fin.ext (by
    match a with
    | ⟨0, _⟩ => rfl
    | ⟨1, _⟩ => rfl)
  have h28 : idx_main_v28 (ix2 e (0 : Fin 1)) = ix1 e := funext fun a => Fin.ext (by
    match a with
    | ⟨0, _⟩ => rfl)
  rw [val_main_v38_apply, val_main_v37_apply, h37, val_main_v28_apply, h28, val_main_v36_apply,
    val_main_call0_v0_apply, val_main_call0_cst_apply]
  rfl

end Cert.ReferenceIdeal.StageAt

end
-- ==== Proof.Bridge.lean ====
/-
  The kernel's blocks against the reference's stages, entry by entry.

  A block of the first kernel holds rows n = 5000·t + p of the arrays; a block of the second holds edges
  e = 10000·t + p. If the block of x read at (p, k) is x at (n, k), the whole matrix is the transposed weights, the bias row
  read at (0, q) is the bias vector at q, and so on for the other operands, then what a body stores at (p, q) is the
  reference's stage at (n, q): both sides are the same expression of the same entries. The hypotheses are exactly the
  block reads, stated over any arrays.
-/
import proofs.«113953_j21423296872969_1_alg».proof.Proof.BodyAt
import proofs.«113953_j21423296872969_1_alg».proof.Proof.RefAt

noncomputable section

open scoped BigOperators

namespace Cert.Bridge

open Cert.KernelIdeal Cert.KernelIdeal.Gen Idealize.ShloMosaic Idealize.ShloMosaic.ValueIdx

/-- The linear layer's block at (p, q) is the reference's linear stage at (n, q). -/
theorem linear_block (X : FVec Ideal S50000x128 .f32) (Wm : FVec Ideal S128x128 .f32) (B : FVec Ideal S128 .f32)
    (xb : FVec Ideal S5000x128 .f32) (wt : FVec Ideal S128x128 .bf16) (b2 : FVec Ideal S1x128 .f32)
    (n : Fin 50000) (p : Fin 5000) (q : Fin 128)
    (hx : ∀ k : Fin 128, xb (ix2 p k) = X (ix2 n k))
    (hw : ∀ k : Fin 128, wt (ix2 k q) = Cert.ReferenceIdeal.Read.val_main_v0 (F := Ideal) Wm (ix2 k q))
    (hb : b2 (ix2 (0 : Fin 1) q) = B (ix1 q)) :
    k0_pay1 (F := Ideal) xb wt b2 (ix2 p q) = Cert.ReferenceIdeal.Read.val_main_v4 (F := Ideal) X Wm B (ix2 n q) := by
  rw [Cert.KernelIdeal.BodyAt.linear_at, Cert.ReferenceIdeal.StageAt.linear_at, hb]
  exact congrArg (· + B (ix1 q)) (Finset.sum_congr rfl fun k _ => by rw [hx k, hw k])

/-- The self-loop block at (p, q) is the reference's self-loop stage at (n, q). -/
theorem self_loop_block (X : FVec Ideal S50000x128 .f32) (Dst : IVec S600000 32) (Wm : FVec Ideal S128x128 .f32)
    (B : FVec Ideal S128 .f32) (R : FVec Ideal S1x128 .f32)
    (xb : FVec Ideal S5000x128 .f32) (wt : FVec Ideal S128x128 .bf16) (b2 r2 : FVec Ideal S1x128 .f32)
    (dinv : FVec Ideal S5000x1 .f32) (n : Fin 50000) (p : Fin 5000) (q : Fin 128)
    (hlin : k0_pay1 (F := Ideal) xb wt b2 (ix2 p q) = Cert.ReferenceIdeal.Read.val_main_v4 (F := Ideal) X Wm B (ix2 n q))
    (hr : r2 (ix2 (0 : Fin 1) q) = R (ix2 (0 : Fin 1) q))
    (hd : dinv (ix2 p (0 : Fin 1)) = Cert.ReferenceIdeal.Read.val_main_v46 (F := Ideal) Dst (ix1 n)) :
    k0_pay2 (F := Ideal) xb wt b2 r2 dinv (ix2 p q)
      = Cert.ReferenceIdeal.Read.val_main_v49 (F := Ideal) X Dst Wm B R (ix2 n q) := by
  rw [Cert.KernelIdeal.BodyAt.self_loop_at, Cert.ReferenceIdeal.StageAt.self_loop_at, hlin, hr, hd]

/-- The message block at (p, q) is the reference's message stage at (e, q). -/
theorem message_block (X : FVec Ideal S50000x128 .f32) (Src Dst : IVec S600000 32) (Wm : FVec Ideal S128x128 .f32)
    (B : FVec Ideal S128 .f32) (nb : FVec Ideal S10000x1 .f32) (gb : FVec Ideal S10000x128 .f32)
    (e : Fin 600000) (p : Fin 10000) (q : Fin 128)
    (hn : nb (ix2 p (0 : Fin 1)) = Cert.ReferenceIdeal.Read.val_main_v27 (F := Ideal) Src Dst (ix1 e))
    (hg : gb (ix2 p q) = Cert.ReferenceIdeal.Read.val_main_v35 (F := Ideal) X Src Wm B (ix2 e q)) :
    k1_pay1 (F := Ideal) nb gb (ix2 p q)
      = Cert.ReferenceIdeal.Read.val_main_v38 (F := Ideal) X Src Dst Wm B (ix2 e q) := by
  rw [Cert.KernelIdeal.BodyAt.message_at, Cert.ReferenceIdeal.StageAt.message_at, hn, hg]

end Cert.Bridge

end
-- ==== Proof.Region0.lean ====
/-
  The first kernel region's two output arrays, whole.

  The region runs the linear and self-loop body at ten grid points; point t stages rows 5000·t … 5000·t + 4999 of x and
  of the reciprocal-degree column, and the whole of Wᵀ, of the bias row and of the root row, and writes back the same
  rows of its two outputs. The arrays it finds are what the first host stretch left: x and the root row as launched, Wᵀ the
  transposed weights (their change of float format is the identity), the bias as a row, the reciprocal degrees as a column.
  So what point t writes back is block t of the reference's linear stage h, respectively of its self-loop stage, of the
  launch arguments; the ten blocks tile the 50000 rows, so after the region the two arrays are those two stages.
-/
import proofs.«113953_j21423296872969_1_alg».proof.Proof.Gen.KernelIdeal.Frame
import proofs.«113953_j21423296872969_1_alg».proof.Proof.Bridge
import Idealize.ShloMosaic.Lib.Pipeline.Value
import Idealize.ShloMosaic.Lib.StableHlo.Run
import Idealize.ShloMosaic.Lib.ValueLayout

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The reference's dense stages of the launch arguments -/

/-- h = x · Wᵀ + b, of the arguments as launched. -/
abbrev linStage (c : Dev nD) : FVec Ideal S50000x128 .f32 :=
  Cert.ReferenceIdeal.Read.val_main_v4 (F := Ideal) (m ((c : Thread nD τ).loc main_arg0))
    (m ((c : Thread nD τ).loc main_arg3)) (m ((c : Thread nD τ).loc main_arg4))

/-- max(h + root, 0) · (1 / degree), of the arguments as launched. -/
abbrev selfStage (c : Dev nD) : FVec Ideal S50000x128 .f32 :=
  Cert.ReferenceIdeal.Read.val_main_v49 (F := Ideal) (m ((c : Thread nD τ).loc main_arg0))
    (m ((c : Thread nD τ).loc main_arg2)) (m ((c : Thread nD τ).loc main_arg3)) (m ((c : Thread nD τ).loc main_arg4))
    (m ((c : Thread nD τ).loc main_arg5))

/-! ## The arrays the region finds -/

theorem entry_x (c : Dev nD) :
    (V1 m ρ c main_arg0 : FVec Ideal S50000x128 .f32) = m ((c : Thread nD τ).loc main_arg0) := by
  show StableHlo.after hostOps0 (W0 m ρ c) (Proc.devRef .tc main_arg0) = _
  simp only [hostOps0]
  after_results

theorem entry_wt (c : Dev nD) :
    (V1 m ρ c main_v11 : FVec Ideal S128x128 .bf16)
      = Cert.ReferenceIdeal.Read.val_main_v0 (F := Ideal) (m ((c : Thread nD τ).loc main_arg3)) := by
  show StableHlo.after hostOps0 (W0 m ρ c) (Proc.devRef .tc main_v11) = _
  simp only [hostOps0]
  after_results
  rfl

theorem entry_bias (c : Dev nD) :
    (V1 m ρ c main_v12 : FVec Ideal S1x128 .f32)
      = shapeCast S1x128 (m ((c : Thread nD τ).loc main_arg4)) shapeCasts_S128_S1x128 := by
  show StableHlo.after hostOps0 (W0 m ρ c) (Proc.devRef .tc main_v12) = _
  simp only [hostOps0]
  after_results
  rfl

theorem entry_root (c : Dev nD) :
    (V1 m ρ c main_arg5 : FVec Ideal S1x128 .f32) = m ((c : Thread nD τ).loc main_arg5) := by
  show StableHlo.after hostOps0 (W0 m ρ c) (Proc.devRef .tc main_arg5) = _
  simp only [hostOps0]
  after_results

theorem entry_dinv (c : Dev nD) :
    (V1 m ρ c main_v13 : FVec Ideal S50000x1 .f32)
      = shapeCast S50000x1 (Cert.ReferenceIdeal.Read.val_main_v46 (F := Ideal) (m ((c : Thread nD τ).loc main_arg2)))
          shapeCasts_S50000_S50000x1 := by
  show StableHlo.after hostOps0 (W0 m ρ c) (Proc.devRef .tc main_v13) = _
  simp only [hostOps0]
  after_results
  rfl

/-! ## The index maps over the ten points -/

theorem hz : (![0, 0] : Fin 2 → Nat) = fun _ => 0 := funext fun a => by fin_cases a <;> rfl

/-- Rows move with the point (x, the degree column and both outputs); Wᵀ and the two rows stay at block 0. -/
theorem idx_facts : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 10 := lt_of_lt_of_eq t.isLt N_0

/-! ## Where a block's entry sits in its array -/

theorem emb_x (t : Fin cfg0.N) (p : Fin 5000) (k : Fin 128) (n : Fin 50000) (hn : n.val = t.val * 5000 + p.val) :
    ((cfg0.win 0).blk t).view.emb (ix2 p k) = (ix2 n k : S50000x128.Idx) := by
  obtain ⟨e0, e1, -⟩ := idx_facts t
  funext a; apply Fin.ext
  match a with
  | ⟨0, _⟩ => show win0_0.index t (0 : Fin 2) * 5000 + 1 * p.val = n.val; omega
  | ⟨1, _⟩ => show win0_0.index t (1 : Fin 2) * 128 + 1 * k.val = k.val; omega

theorem emb_wt (t : Fin cfg0.N) (k q : Fin 128) :
    ((cfg0.win 1).blk t).view.emb (ix2 k q) = (ix2 k q : S128x128.Idx) := by
  obtain ⟨-, -, e0, e1, -⟩ := idx_facts t
  funext a; apply Fin.ext
  match a with
  | ⟨0, _⟩ => show win0_1.index t (0 : Fin 2) * 128 + 1 * k.val = k.val; omega
  | ⟨1, _⟩ => show win0_1.index t (1 : Fin 2) * 128 + 1 * q.val = q.val; omega

theorem emb_bias (t : Fin cfg0.N) (u : Fin 1) (q : Fin 128) :
    ((cfg0.win 2).blk t).view.emb (ix2 u q) = (ix2 u q : S1x128.Idx) := by
  obtain ⟨-, -, -, -, e0, e1, -⟩ := idx_facts t
  funext a; apply Fin.ext
  match a with
  | ⟨0, _⟩ => show win0_2.index t (0 : Fin 2) * 1 + 1 * u.val = u.val; omega
  | ⟨1, _⟩ => show win0_2.index t (1 : Fin 2) * 128 + 1 * q.val = q.val; omega

theorem emb_root (t : Fin cfg0.N) (u : Fin 1) (q : Fin 128) :
    ((cfg0.win 3).blk t).view.emb (ix2 u q) = (ix2 u q : S1x128.Idx) := by
  obtain ⟨-, -, -, -, -, -, e0, e1, -⟩ := idx_facts t
  funext a; apply Fin.ext
  match a with
  | ⟨0, _⟩ => show win0_3.index t (0 : Fin 2) * 1 + 1 * u.val = u.val; omega
  | ⟨1, _⟩ => show win0_3.index t (1 : Fin 2) * 128 + 1 * q.val = q.val; omega

theorem emb_dinv (t : Fin cfg0.N) (p : Fin 5000) (u : Fin 1) (n : Fin 50000) (hn : n.val = t.val * 5000 + p.val) :
    ((cfg0.win 4).blk t).view.emb (ix2 p u) = (ix2 n u : S50000x1.Idx) := by
  obtain ⟨-, -, -, -, -, -, -, -, e0, e1, -⟩ := idx_facts t
  funext a; apply Fin.ext
  match a with
  | ⟨0, _⟩ => show win0_4.index t (0 : Fin 2) * 5000 + 1 * p.val = n.val; omega
  | ⟨1, _⟩ => show win0_4.index t (1 : Fin 2) * 1 + 1 * u.val = u.val; omega

theorem emb_lin (t : Fin cfg0.N) (p : Fin 5000) (q : Fin 128) (n : Fin 50000) (hn : n.val = t.val * 5000 + p.val) :
    ((cfg0.win 5).blk t).view.emb (ix2 p q) = (ix2 n q : S50000x128.Idx) := by
  obtain ⟨-, -, -, -, -, -, -, -, -, -, e0, e1, -⟩ := idx_facts t
  funext a; apply Fin.ext
  match a with
  | ⟨0, _⟩ => show win0_5.index t (0 : Fin 2) * 5000 + 1 * p.val = n.val; omega
  | ⟨1, _⟩ => show win0_5.index t (1 : Fin 2) * 128 + 1 * q.val = q.val; omega

theorem emb_self (t : Fin cfg0.N) (p : Fin 5000) (q : Fin 128) (n : Fin 50000) (hn : n.val = t.val * 5000 + p.val) :
    ((cfg0.win 6).blk t).view.emb (ix2 p q) = (ix2 n q : S50000x128.Idx) := by
  obtain ⟨-, -, -, -, -, -, -, -, -, -, -, -, e0, e1⟩ := idx_facts t
  funext a; apply Fin.ext
  match a with
  | ⟨0, _⟩ => show win0_6.index t (0 : Fin 2) * 5000 + 1 * p.val = n.val; omega
  | ⟨1, _⟩ => show win0_6.index t (1 : Fin 2) * 128 + 1 * q.val = q.val; omega

/-! ## What a point computes, entry by entry -/

/-- The linear block of point t at (p, q) is h at row 5000·t + p. -/
theorem block_linear (c : Dev nD) (t : Fin cfg0.N) (p : Fin 5000) (q : Fin 128) (n : Fin 50000)
    (hn : n.val = t.val * 5000 + p.val) :
    k0_pay1 (F := Ideal) (iblk0 (V1 m ρ) c 0 t) (iblk0 (V1 m ρ) c 1 t) (iblk0 (V1 m ρ) c 2 t) (ix2 p q)
      = linStage m c (ix2 n q) := by
  refine Cert.Bridge.linear_block (m ((c : Thread nD τ).loc main_arg0)) (m ((c : Thread nD τ).loc main_arg3))
    (m ((c : Thread nD τ).loc main_arg4)) (iblk0 (V1 m ρ) c 0 t) (iblk0 (V1 m ρ) c 1 t) (iblk0 (V1 m ρ) c 2 t) n p q
    (fun k => ?_) (fun k => ?_) ?_
  · show V1 m ρ c main_arg0 (((cfg0.win 0).blk t).view.emb (ix2 p k)) = _
    rw [emb_x t p k n hn, entry_x]
  · show V1 m ρ c main_v11 (((cfg0.win 1).blk t).view.emb (ix2 k q)) = _
    rw [emb_wt t k q, entry_wt]
  · show V1 m ρ c main_v12 (((cfg0.win 2).blk t).view.emb (ix2 (0 : Fin 1) q)) = _
    rw [emb_bias t 0 q, entry_bias]
    exact shapeCast_a_1a_apply _ _ 0 q

/-- The self-loop block of point t at (p, q) is the self-loop stage at row 5000·t + p. -/
theorem block_self (c : Dev nD) (t : Fin cfg0.N) (p : Fin 5000) (q : Fin 128) (n : Fin 50000)
    (hn : n.val = t.val * 5000 + p.val) :
    k0_pay2 (F := Ideal) (iblk0 (V1 m ρ) c 0 t) (iblk0 (V1 m ρ) c 1 t) (iblk0 (V1 m ρ) c 2 t) (iblk0 (V1 m ρ) c 3 t)
        (iblk0 (V1 m ρ) c 4 t) (ix2 p q)
      = selfStage m c (ix2 n q) := by
  refine Cert.Bridge.self_loop_block (m ((c : Thread nD τ).loc main_arg0)) (m ((c : Thread nD τ).loc main_arg2))
    (m ((c : Thread nD τ).loc main_arg3)) (m ((c : Thread nD τ).loc main_arg4)) (m ((c : Thread nD τ).loc main_arg5))
    (iblk0 (V1 m ρ) c 0 t) (iblk0 (V1 m ρ) c 1 t) (iblk0 (V1 m ρ) c 2 t) (iblk0 (V1 m ρ) c 3 t) (iblk0 (V1 m ρ) c 4 t)
    n p q (block_linear m ρ c t p q n hn) ?_ ?_
  · show V1 m ρ c main_arg5 (((cfg0.win 3).blk t).view.emb (ix2 (0 : Fin 1) q)) = _
    rw [emb_root t 0 q, entry_root]
  · show V1 m ρ c main_v13 (((cfg0.win 4).blk t).view.emb (ix2 p (0 : Fin 1))) = _
    rw [emb_dinv t p 0 n hn, entry_dinv]
    exact Cert.LayoutKeepdims.shapeCast_a_a1_apply _ _ n 0

/-! ## What a point writes back is its block of the stage -/

theorem flushed_lin (c : Dev nD) (t : Fin cfg0.N) :
    (dat0 (V1 m ρ) c).flushed 5 t = ((cfg0.win 5).blk t).view.read (Elt Ideal) (linStage m c) := by
  show (cfg0.win 5).cut (grid0.coords t) ((dat0 (V1 m ρ) c).after 5 t) = _
  rw [after0_5]
  unfold out0_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have hp := p.isLt
  have ht := point_lt t
  show k0_pay1 (F := Ideal) (iblk0 (V1 m ρ) c 0 t) (iblk0 (V1 m ρ) c 1 t) (iblk0 (V1 m ρ) c 2 t) (ix2 p q)
    = linStage m c (((cfg0.win 5).blk t).view.emb (ix2 p q))
  rw [emb_lin t p q ⟨t.val * 5000 + p.val, by omega⟩ rfl]
  exact block_linear m ρ c t p q ⟨t.val * 5000 + p.val, by omega⟩ rfl

theorem flushed_self (c : Dev nD) (t : Fin cfg0.N) :
    (dat0 (V1 m ρ) c).flushed 6 t = ((cfg0.win 6).blk t).view.read (Elt Ideal) (selfStage m c) := by
  show (cfg0.win 6).cut (grid0.coords t) ((dat0 (V1 m ρ) c).after 6 t) = _
  rw [after0_6]
  unfold out0_6
  rw [View.canon_unit_zero hz]
  simp only [View.ld_unit_zero (S := S5000x128) hz, View.ld_unit_zero (S := S128x128) hz, View.ld_unit_zero (S := S1x128) hz,
    View.ld_unit_zero (S := S5000x1) hz]
  funext j
  obtain ⟨p, q, rfl⟩ : ∃ (p : Fin 5000) (q : Fin 128), j = ix2 p q := ⟨j 0, j 1, eq_ix2 j⟩
  have hp := p.isLt
  have ht := point_lt t
  show k0_pay2 (F := Ideal) (iblk0 (V1 m ρ) c 0 t) (iblk0 (V1 m ρ) c 1 t) (iblk0 (V1 m ρ) c 2 t) (iblk0 (V1 m ρ) c 3 t)
      (iblk0 (V1 m ρ) c 4 t) (ix2 p q)
    = selfStage m c (((cfg0.win 6).blk t).view.emb (ix2 p q))
  rw [emb_self t p q ⟨t.val * 5000 + p.val, by omega⟩ rfl]
  exact block_self m ρ c t p q ⟨t.val * 5000 + p.val, by omega⟩ rfl

/-! ## The ten blocks tile the rows -/

theorem mem_blk_lin (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v14_0).slice (win0_5.rect t)).set ↔ _
  rw [View.set_slice_whole, Rect.mem_set_unit]
  exact Iff.rfl

theorem mem_blk_self (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v14_1).slice (win0_6.rect t)).set ↔ _
  rw [View.set_slice_whole, Rect.mem_set_unit]
  exact Iff.rfl

/-- Row r lies in the block of point r / 5000. -/
theorem cover_lin (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : (i 0).val / 5000 < cfg0.N := lt_of_lt_of_eq (by omega : (i 0).val / 5000 < 10) N_0.symm
  obtain ⟨-, -, -, -, -, -, -, -, -, -, e0, e1, -⟩ := idx_facts ⟨(i 0).val / 5000, hN⟩
  refine ⟨⟨(i 0).val / 5000, hN⟩, flush0_5 _, ?_⟩
  rw [mem_blk_lin]
  intro a
  match a with
  | ⟨0, _⟩ =>
    show win0_5.index ⟨(i 0).val / 5000, hN⟩ (0 : Fin 2) * 5000 ≤ (i 0).val
      ∧ (i 0).val < win0_5.index ⟨(i 0).val / 5000, hN⟩ (0 : Fin 2) * 5000 + 5000
    have e0' : win0_5.index ⟨(i 0).val / 5000, hN⟩ (0 : Fin 2) = (i 0).val / 5000 := e0
    omega
  | ⟨1, _⟩ =>
    show win0_5.index ⟨(i 0).val / 5000, hN⟩ (1 : Fin 2) * 128 ≤ (i 1).val
      ∧ (i 1).val < win0_5.index ⟨(i 0).val / 5000, hN⟩ (1 : Fin 2) * 128 + 128
    omega

theorem cover_self (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : (i 0).val / 5000 < cfg0.N := lt_of_lt_of_eq (by omega : (i 0).val / 5000 < 10) N_0.symm
  obtain ⟨-, -, -, -, -, -, -, -, -, -, -, -, e0, e1⟩ := idx_facts ⟨(i 0).val / 5000, hN⟩
  refine ⟨⟨(i 0).val / 5000, hN⟩, flush0_6 _, ?_⟩
  rw [mem_blk_self]
  intro a
  match a with
  | ⟨0, _⟩ =>
    show win0_6.index ⟨(i 0).val / 5000, hN⟩ (0 : Fin 2) * 5000 ≤ (i 0).val
      ∧ (i 0).val < win0_6.index ⟨(i 0).val / 5000, hN⟩ (0 : Fin 2) * 5000 + 5000
    have e0' : win0_6.index ⟨(i 0).val / 5000, hN⟩ (0 : Fin 2) = (i 0).val / 5000 := e0
    omega
  | ⟨1, _⟩ =>
    show win0_6.index ⟨(i 0).val / 5000, hN⟩ (1 : Fin 2) * 128 ≤ (i 1).val
      ∧ (i 1).val < win0_6.index ⟨(i 0).val / 5000, hN⟩ (1 : Fin 2) * 128 + 128
    omega

/-! ## The two arrays after the region -/

/-- The first output array ends as the reference's linear stage. -/
theorem final_lin (c : Dev nD) : (dat0 (V1 m ρ) c).arrAt 5 cfg0.N = linStage m c :=
  (dat0 (V1 m ρ) c).arrAt_eq_of_cover 5 (linStage m c) (fun t _ => flushed_lin m ρ c t) cover_lin

/-- The second output array ends as the reference's self-loop stage. -/
theorem final_self (c : Dev nD) : (dat0 (V1 m ρ) c).arrAt 6 cfg0.N = selfStage m c :=
  (dat0 (V1 m ρ) c).arrAt_eq_of_cover 6 (selfStage m c) (fun t _ => flushed_self m ρ c t) cover_self

end Cert.KernelIdeal.Region0

end
-- ==== Proof.Region1.lean ====
/-
  The second kernel region's output array, whole.

  Between the two regions the host gathers, for every edge, the row of the first region's linear output at the edge's
  source, and multiplies the two gathered inverse-square-root degrees into the edge's weight, kept as a column. The first
  region left the linear stage h in its first output array, so the gathered rows are the reference's gathered rows and
  the weights the reference's weights. The region runs the message body at sixty points; point t stages edges
  10000·t … 10000·t + 9999 of both and writes back the same edges of its output, which is block t of the reference's
  message stage; the sixty blocks tile the 600000 edges, so after the region the array is that stage.
-/
import proofs.«113953_j21423296872969_1_alg».proof.Proof.Region0

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- weight(e) · max(h[src e], 0), of the arguments as launched. -/
abbrev msgStage (c : Dev nD) : FVec Ideal S600000x128 .f32 :=
  Cert.ReferenceIdeal.Read.val_main_v38 (F := Ideal) (m ((c : Thread nD τ).loc main_arg0))
    (m ((c : Thread nD τ).loc main_arg1)) (m ((c : Thread nD τ).loc main_arg2)) (m ((c : Thread nD τ).loc main_arg3))
    (m ((c : Thread nD τ).loc main_arg4))

/-! ## The buffers after the first region -/

theorem after0_lin (c : Dev nD) : W2 m ρ c (Proc.devRef .tc main_v14_0) = Cert.KernelIdeal.Region0.linStage m c :=
  (W2_arr m ρ c 5).trans (Cert.KernelIdeal.Region0.final_lin m ρ c)

theorem after0_self (c : Dev nD) : W2 m ρ c (Proc.devRef .tc main_v14_1) = Cert.KernelIdeal.Region0.selfStage m c :=
  (W2_arr m ρ c 6).trans (Cert.KernelIdeal.Region0.final_self m ρ c)

theorem after0_src (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  simp only [hostOps0]
  after_results

theorem after0_dst (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  simp only [hostOps0]
  after_results

/-- The inverse square roots of the degrees, as the reference computes them. -/
theorem after0_rsqrt (c : Dev nD) :
    W2 m ρ c (Proc.devRef .tc main_v7)
      = Cert.ReferenceIdeal.Read.val_main_v12 (F := Ideal) (m ((c : Thread nD τ).loc main_arg2)) := by
  refine (W2_of_ne m ρ c main_v7 (by decide)).trans ?_
  show StableHlo.after hostOps0 (W0 m ρ c) (Proc.devRef .tc main_v7) = _
  simp only [hostOps0]
  after_results
  rfl

/-! ## The arrays the region finds -/

theorem entry_gathered (c : Dev nD) :
    (V3 m ρ c main_v37 : FVec Ideal S600000x128 .f32)
      = Cert.ReferenceIdeal.Read.val_main_v35 (F := Ideal) (m ((c : Thread nD τ).loc main_arg0))
          (m ((c : Thread nD τ).loc main_arg1)) (m ((c : Thread nD τ).loc main_arg3)) (m ((c : Thread nD τ).loc main_arg4)) := by
  show StableHlo.after hostOps1 (W2 m ρ c) (Proc.devRef .tc main_v37) = _
  simp only [hostOps1]
  after_results_simp
  rw [after0_lin, after0_src]
  rfl

theorem entry_weight (c : Dev nD) :
    (V3 m ρ c main_v30 : FVec Ideal S600000x1 .f32)
      = shapeCast S600000x1 (Cert.ReferenceIdeal.Read.val_main_v27 (F := Ideal) (m ((c : Thread nD τ).loc main_arg1))
          (m ((c : Thread nD τ).loc main_arg2))) shapeCasts_S600000_S600000x1 := by
  show StableHlo.after hostOps1 (W2 m ρ c) (Proc.devRef .tc main_v30) = _
  simp only [hostOps1]
  after_results_simp
  rw [after0_rsqrt, after0_src, after0_dst]
  rfl

/-! ## The index maps over the sixty points -/

theorem hz : (![0, 0] : Fin 2 → Nat) = fun _ => 0 := funext fun a => by fin_cases a <;> rfl

/-- Every window moves along the edges with the point. -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

theorem point_lt (t : Fin cfg1.N) : t.val < 60 := lt_of_lt_of_eq t.isLt N_1

/-! ## Where a block's entry sits in its array -/

theorem emb_gathered (t : Fin cfg1.N) (p : Fin 10000) (q : Fin 128) (e : Fin 600000) (he : e.val = t.val * 10000 + p.val) :
    ((cfg1.win 0).blk t).view.emb (ix2 p q) = (ix2 e q : S600000x128.Idx) := by
  obtain ⟨e0, e1, -⟩ := idx_facts t
  funext a; apply Fin.ext
  match a with
  | ⟨0, _⟩ => show win1_0.index t (0 : Fin 2) * 10000 + 1 * p.val = e.val; omega
  | ⟨1, _⟩ => show win1_0.index t (1 : Fin 2) * 128 + 1 * q.val = q.val; omega

theorem emb_weight (t : Fin cfg1.N) (p : Fin 10000) (u : Fin 1) (e : Fin 600000) (he : e.val = t.val * 10000 + p.val) :
    ((cfg1.win 1).blk t).view.emb (ix2 p u) = (ix2 e u : S600000x1.Idx) := by
  obtain ⟨-, -, e0, e1, -⟩ := idx_facts t
  funext a; apply Fin.ext
  match a with
  | ⟨0, _⟩ => show win1_1.index t (0 : Fin 2) * 10000 + 1 * p.val = e.val; omega
  | ⟨1, _⟩ => show win1_1.index t (1 : Fin 2) * 1 + 1 * u.val = u.val; omega

theorem emb_msg (t : Fin cfg1.N) (p : Fin 10000) (q : Fin 128) (e : Fin 600000) (he : e.val = t.val * 10000 + p.val) :
    ((cfg1.win 2).blk t).view.emb (ix2 p q) = (ix2 e q : S600000x128.Idx) := by
  obtain ⟨-, -, -, -, e0, e1⟩ := idx_facts t
  funext a; apply Fin.ext
  match a with
  | ⟨0, _⟩ => show win1_2.index t (0 : Fin 2) * 10000 + 1 * p.val = e.val; omega
  | ⟨1, _⟩ => show win1_2.index t (1 : Fin 2) * 128 + 1 * q.val = q.val; omega

/-! ## What a point computes, entry by entry -/

/-- The message block of point t at (p, q) is the message stage at edge 10000·t + p. -/
theorem block_message (c : Dev nD) (t : Fin cfg1.N) (p : Fin 10000) (q : Fin 128) (e : Fin 600000)
    (he : e.val = t.val * 10000 + p.val) :
    k1_pay1 (F := Ideal) (iblk1 (V3 m ρ) c 1 t) (iblk1 (V3 m ρ) c 0 t) (ix2 p q) = msgStage m c (ix2 e q) := by
  refine Cert.Bridge.message_block (m ((c : Thread nD τ).loc main_arg0)) (m ((c : Thread nD τ).loc main_arg1))
    (m ((c : Thread nD τ).loc main_arg2)) (m ((c : Thread nD τ).loc main_arg3)) (m ((c : Thread nD τ).loc main_arg4))
    (iblk1 (V3 m ρ) c 1 t) (iblk1 (V3 m ρ) c 0 t) e p q ?_ ?_
  · show V3 m ρ c main_v30 (((cfg1.win 1).blk t).view.emb (ix2 p (0 : Fin 1))) = _
    rw [emb_weight t p 0 e he, entry_weight]
    exact Cert.LayoutKeepdims.shapeCast_a_a1_apply _ _ e 0
  · show V3 m ρ c main_v37 (((cfg1.win 0).blk t).view.emb (ix2 p q)) = _
    rw [emb_gathered t p q e he, entry_gathered]

/-! ## What a point writes back is its block of the stage -/

theorem flushed_msg (c : Dev nD) (t : Fin cfg1.N) :
    (dat1 (V3 m ρ) c).flushed 2 t = ((cfg1.win 2).blk t).view.read (Elt Ideal) (msgStage m c) := by
  show (cfg1.win 2).cut (grid1.coords t) ((dat1 (V3 m ρ) c).after 2 t) = _
  rw [after1_2]
  unfold out1_2
  rw [View.canon_unit_zero hz]
  simp only [View.ld_unit_zero (S := S10000x128) hz, View.ld_unit_zero (S := S10000x1) hz]
  funext j
  obtain ⟨p, q, rfl⟩ : ∃ (p : Fin 10000) (q : Fin 128), j = ix2 p q := ⟨j 0, j 1, eq_ix2 j⟩
  have hp := p.isLt
  have ht := point_lt t
  show k1_pay1 (F := Ideal) (iblk1 (V3 m ρ) c 1 t) (iblk1 (V3 m ρ) c 0 t) (ix2 p q)
    = msgStage m c (((cfg1.win 2).blk t).view.emb (ix2 p q))
  rw [emb_msg t p q ⟨t.val * 10000 + p.val, by omega⟩ rfl]
  exact block_message m ρ c t p q ⟨t.val * 10000 + p.val, by omega⟩ rfl

/-! ## The sixty blocks tile the edges -/

theorem mem_blk_msg (t : Fin cfg1.N) (i : S600000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v38).slice (win1_2.rect t)).set ↔ _
  rw [View.set_slice_whole, Rect.mem_set_unit]
  exact Iff.rfl

/-- Edge e lies in the block of point e / 10000. -/
theorem cover_msg (i : S600000x128.Idx) :
    ∃ t : Fin cfg1.N, (cfg1.win 2).flush t = true ∧ i ∈ ((cfg1.win 2).blk t).view.set := by
  have hi0 : (i 0).val < 600000 := (i 0).isLt
  have hi1 : (i 1).val < 128 := (i 1).isLt
  have hN : (i 0).val / 10000 < cfg1.N := lt_of_lt_of_eq (by omega : (i 0).val / 10000 < 60) N_1.symm
  obtain ⟨-, -, -, -, e0, e1⟩ := idx_facts ⟨(i 0).val / 10000, hN⟩
  refine ⟨⟨(i 0).val / 10000, hN⟩, flush1_2 _, ?_⟩
  rw [mem_blk_msg]
  intro a
  match a with
  | ⟨0, _⟩ =>
    show win1_2.index ⟨(i 0).val / 10000, hN⟩ (0 : Fin 2) * 10000 ≤ (i 0).val
      ∧ (i 0).val < win1_2.index ⟨(i 0).val / 10000, hN⟩ (0 : Fin 2) * 10000 + 10000
    have e0' : win1_2.index ⟨(i 0).val / 10000, hN⟩ (0 : Fin 2) = (i 0).val / 10000 := e0
    omega
  | ⟨1, _⟩ =>
    show win1_2.index ⟨(i 0).val / 10000, hN⟩ (1 : Fin 2) * 128 ≤ (i 1).val
      ∧ (i 1).val < win1_2.index ⟨(i 0).val / 10000, hN⟩ (1 : Fin 2) * 128 + 128
    omega

/-! ## The array after the region -/

/-- The output array ends as the reference's message stage. -/
theorem final_msg (c : Dev nD) : (dat1 (V3 m ρ) c).arrAt 2 cfg1.N = msgStage m c :=
  (dat1 (V3 m ρ) c).arrAt_eq_of_cover 2 (msgStage m c) (fun t _ => flushed_msg m ρ c t) cover_msg

end Cert.KernelIdeal.Region1

end
-- ==== Proof.Result.lean ====
/-
  The program's result is the reference's result.

  After the second region the host scatter-adds the messages to the edges' destinations and adds the self-loop term. The
  second region left the reference's message stage in its output array and the first region the reference's self-loop
  stage in its second output array; the destinations are as launched. The last stretch applies to them exactly the
  reference's last two operations, so the result buffer holds the reference's result stage of the launch arguments.
-/
import proofs.«113953_j21423296872969_1_alg».proof.Proof.Region1

set_option maxRecDepth 16384

noncomputable section

namespace Cert.KernelIdeal.Result

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## The buffers after the second region -/

theorem after1_msg (c : Dev nD) : W4 m ρ c (Proc.devRef .tc main_v38) = Cert.KernelIdeal.Region1.msgStage m c :=
  (W4_arr m ρ c 2).trans (Cert.KernelIdeal.Region1.final_msg m ρ c)

/-- The self-loop array is not touched by the second stretch or the second region. -/
theorem after1_self (c : Dev nD) : W4 m ρ c (Proc.devRef .tc main_v14_1) = Cert.KernelIdeal.Region0.selfStage m c :=
  calc W4 m ρ c (Proc.devRef .tc main_v14_1)
    _ = W3 m ρ c (Proc.devRef .tc main_v14_1) := W4_of_ne m ρ c main_v14_1 (by decide)
    _ = W2 m ρ c (Proc.devRef .tc main_v14_1) := StableHlo.after_of_forall_not_mem (b := Proc.devRef .tc main_v14_1) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))
    _ = Cert.KernelIdeal.Region0.selfStage m c := Cert.KernelIdeal.Region1.after0_self m ρ c

/-- Nor are the destinations. -/
theorem after1_dst (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))
    _ = m ((c : Thread nD τ).loc main_arg2) := Cert.KernelIdeal.Region1.after0_dst m ρ c

/-! ## The result buffer -/

/-- The last boundary's contents at the result buffer: the reference's result stage of the launch arguments. -/
theorem result_eq (c : Dev nD) :
    W5 m ρ c (Proc.devRef .tc main_v42)
      = Cert.ReferenceIdeal.Read.val_main_v50 (F := Ideal) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)) := by
  show StableHlo.after hostOps2 (W4 m ρ c) (Proc.devRef .tc main_v42) = _
  simp only [hostOps2]
  after_results
  rw [after1_msg, after1_self, after1_dst]
  rfl

end Cert.KernelIdeal.Result

end
-- ==== Proof.lean ====
/-
  A graph-convolution layer on TPU against its plain reference: they compute one function over the extended reals.

  With x the node features, W and b a linear layer, r a root embedding, and an edge list (src, dst), both programs
  compute, for deg(n) = 1 + #{e : dst e = n},
      h = x · Wᵀ + b,      out[n] = Σ_{e : dst e = n} deg(src e)^(-1/2) · deg(dst e)^(-1/2) · max(h[src e], 0)
                                     + max(h[n] + r, 0) / deg(n).
  The kernel program computes h and the self-loop term in one kernel over ten blocks of rows, and the per-edge messages
  in a second kernel over sixty blocks of edges; the degree counts, the gathers by src and dst and the final scatter-add
  by dst are the same host operations in both programs. So the proof shows three things: the first kernel's two output
  arrays are the reference's linear and self-loop stages of the launch arguments, and the second kernel's output array is
  the reference's message stage — each block written back is the block of the stage, entry by entry, and the blocks tile
  the array — and then the host operations around them are the reference's own. No law of arithmetic beyond reading
  each operation at an entry is used (the contraction is the same sum on both sides, a change of float format is the
  identity over the extended reals), so the finiteness of the inputs is never opened.
  The two kernel programs' frames are the generated ones; the reference's frame is its run with the result dropped; the
  idealization rewrote nothing, so that conjunct is trivial.
-/
import proofs.«113953_j21423296872969_1_alg».proof.Defs
import proofs.«113953_j21423296872969_1_alg».proof.Proof.Gen.Kernel
import proofs.«113953_j21423296872969_1_alg».proof.Proof.Gen.Kernel.Skeleton
import proofs.«113953_j21423296872969_1_alg».proof.Proof.Gen.Kernel.Launch
import proofs.«113953_j21423296872969_1_alg».proof.Proof.Gen.Kernel.Points
import proofs.«113953_j21423296872969_1_alg».proof.Proof.Gen.Kernel.Frame
import proofs.«113953_j21423296872969_1_alg».proof.Proof.Gen.KernelIdeal
import proofs.«113953_j21423296872969_1_alg».proof.Proof.Gen.KernelIdeal.Skeleton
import proofs.«113953_j21423296872969_1_alg».proof.Proof.Gen.KernelIdeal.Launch
import proofs.«113953_j21423296872969_1_alg».proof.Proof.Gen.KernelIdeal.Points
import proofs.«113953_j21423296872969_1_alg».proof.Proof.Gen.KernelIdeal.Frame
import proofs.«113953_j21423296872969_1_alg».proof.Proof.Gen.ReferenceIdeal
import proofs.«113953_j21423296872969_1_alg».proof.Proof.Gen.ReferenceIdeal.Run
import proofs.«113953_j21423296872969_1_alg».proof.Proof.Gen.ReferenceIdeal.Read
import proofs.«113953_j21423296872969_1_alg».proof.Proof.Gen.Pre_finite_inputs
import proofs.«113953_j21423296872969_1_alg».proof.Proof.KernelRun
import proofs.«113953_j21423296872969_1_alg».proof.Proof.Result
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The kernel program's run with its result read: the reference's result stage of the launch arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v42)
          = Cert.ReferenceIdeal.Read.val_main_v50 (F := Ideal)
              (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono
    (fun r h c => ⟨(h c).1.trans (Cert.KernelIdeal.Result.result_eq m ρ c), (h c).2⟩)
    (Cert.KernelIdeal.RunResult.run (F := Ideal) m ρ)

/-- Both programs end with the reference's result stage of arguments that agree. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
